-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x2048 .f32) (main_arg5 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x2048x512 .f32) (main_arg1 : FVec F S8 .f32) (main_arg2 : FVec F S2048x8 .f32) (main_arg3 : FVec F S2048 .f32) (main_arg4 : FVec F S512x2048 .f32) (main_arg5 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8x2048x512 : Shape := ⟨3, ![8, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S16384x512 : Shape := ⟨2, ![16384, 512]⟩
abbrev S1x8 : Shape := ⟨2, ![1, 8]⟩
abbrev S8x2048 : Shape := ⟨2, ![8, 2048]⟩
abbrev S1x2048 : Shape := ⟨2, ![1, 2048]⟩
abbrev S2048x512 : Shape := ⟨2, ![2048, 512]⟩
abbrev S1x512 : Shape := ⟨2, ![1, 512]⟩
abbrev S1024x512 : Shape := ⟨2, ![1024, 512]⟩
abbrev S1024x8 : Shape := ⟨2, ![1024, 8]⟩
abbrev S1024x2048 : Shape := ⟨2, ![1024, 2048]⟩
abbrev S1024x1 : Shape := ⟨2, ![1024, 1]⟩

abbrev nBuf : Space → Nat
  | .hbm => 21
  | .vmem => 9
  | .smem => 0
  | _ => 0

abbrev bufTy : (tb : Table) → Fin (tcTables nBuf tb) → BufTy
  | .hbm, ⟨0, _⟩ => ⟨S8x2048x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S16384x512, .f32⟩
  | .hbm, ⟨7, _⟩ => ⟨S8, .f32⟩
  | .hbm, ⟨8, _⟩ => ⟨S1x8, .f32⟩
  | .hbm, ⟨9, _⟩ => ⟨S2048x8, .f32⟩
  | .hbm, ⟨10, _⟩ => ⟨S2048x8, .f32⟩
  | .hbm, ⟨11, _⟩ => ⟨S8x2048, .f32⟩
  | .hbm, ⟨12, _⟩ => ⟨S1x2048, .f32⟩
  | .hbm, ⟨13, _⟩ => ⟨S2048x512, .f32⟩
  | .hbm, ⟨14, _⟩ => ⟨S2048x512, .bf16⟩
  | .hbm, ⟨15, _⟩ => ⟨S2048x512, .f32⟩
  | .hbm, ⟨16, _⟩ => ⟨S2048x512, .f32⟩
  | .hbm, ⟨17, _⟩ => ⟨S2048x512, .bf16⟩
  | .hbm, ⟨18, _⟩ => ⟨S1x512, .f32⟩
  | .hbm, ⟨19, _⟩ => ⟨S16384x512, .f32⟩
  | .hbm, ⟨20, _⟩ => ⟨S8x2048x512, .f32⟩
  | .local _ .vmem, ⟨0, _⟩ => ⟨S1024x512, .f32⟩
  | .local _ .vmem, ⟨1, _⟩ => ⟨S1024x512, .f32⟩
  | .local _ .vmem, ⟨2, _⟩ => ⟨S8x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x512_S16384x512 : S8x2048x512.ShapeCasts S16384x512
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  transposes_S2048x8_S8x2048_1_0 : S2048x8.Transposes [1, 0] S8x2048
  shapeCasts_S2048_S1x2048 : S2048.ShapeCasts S1x2048
  transposes_S512x2048_S2048x512_1_0 : S512x2048.Transposes [1, 0] S2048x512
  bitsLt_bf16_f32 : FTy.bits .bf16 < FTy.bits .f32
  shapeCasts_S512_S1x512 : S512.ShapeCasts S1x512
  inb_S1024x512_S1024x8_0_0 : ∀ a, (![0, 0] : Fin 2 → Nat) a + S1024x8.size a ≤ S1024x512.size a
  h_S1024x8 : 0 < S1024x8.numel
  shapeCasts_S1024x8_S1024x8 : S1024x8.ShapeCasts S1024x8
  slices_S1024x8_o0_0_S1024x1 : S1024x8.Slices ![0, 0] S1024x1
  inb_S8x2048_S1x2048_0_0 : ∀ a, (![0, 0] : Fin 2 → Nat) a + S1x2048.size a ≤ S8x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  slices_S1024x8_o0_1_S1024x1 : S1024x8.Slices ![0, 1] S1024x1
  inb_S8x2048_S1x2048_1_0 : ∀ a, (![1, 0] : Fin 2 → Nat) a + S1x2048.size a ≤ S8x2048.size a
  slices_S1024x8_o0_2_S1024x1 : S1024x8.Slices ![0, 2] S1024x1
  inb_S8x2048_S1x2048_2_0 : ∀ a, (![2, 0] : Fin 2 → Nat) a + S1x2048.size a ≤ S8x2048.size a
  slices_S1024x8_o0_3_S1024x1 : S1024x8.Slices ![0, 3] S1024x1
  inb_S8x2048_S1x2048_3_0 : ∀ a, (![3, 0] : Fin 2 → Nat) a + S1x2048.size a ≤ S8x2048.size a
  slices_S1024x8_o0_4_S1024x1 : S1024x8.Slices ![0, 4] S1024x1
  inb_S8x2048_S1x2048_4_0 : ∀ a, (![4, 0] : Fin 2 → Nat) a + S1x2048.size a ≤ S8x2048.size a
  slices_S1024x8_o0_5_S1024x1 : S1024x8.Slices ![0, 5] S1024x1
  inb_S8x2048_S1x2048_5_0 : ∀ a, (![5, 0] : Fin 2 → Nat) a + S1x2048.size a ≤ S8x2048.size a
  slices_S1024x8_o0_6_S1024x1 : S1024x8.Slices ![0, 6] S1024x1
  inb_S8x2048_S1x2048_6_0 : ∀ a, (![6, 0] : Fin 2 → Nat) a + S1x2048.size a ≤ S8x2048.size a
  slices_S1024x8_o0_7_S1024x1 : S1024x8.Slices ![0, 7] S1024x1
  inb_S8x2048_S1x2048_7_0 : ∀ a, (![7, 0] : Fin 2 → Nat) a + S1x2048.size a ≤ S8x2048.size a
  inb_S1x2048_S1x2048_0_0 : ∀ a, (![0, 0] : Fin 2 → Nat) a + S1x2048.size a ≤ S1x2048.size a
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S16384x512_S8x2048x512 : S16384x512.ShapeCasts S8x2048x512
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .f32 = 32 ∨ (Rect.block (s := S8x2048) S8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S8x2048x8 : Shape := ⟨3, ![8, 2048, 8]⟩
abbrev S1x1x8 : Shape := ⟨3, ![1, 1, 8]⟩
abbrev S8x2048x2048 : Shape := ⟨3, ![8, 2048, 2048]⟩
abbrev S1x1x2048 : Shape := ⟨3, ![1, 1, 2048]⟩
abbrev S_ : Shape := ⟨0, ![]⟩
abbrev S1x1x512 : Shape := ⟨3, ![1, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8x2048x8, .f32⟩
  | .hbm, ⟨7, _⟩ => ⟨S8x2048x8, .f32⟩
  | .hbm, ⟨8, _⟩ => ⟨S8, .f32⟩
  | .hbm, ⟨9, _⟩ => ⟨S1x1x8, .f32⟩
  | .hbm, ⟨10, _⟩ => ⟨S8x2048x8, .f32⟩
  | .hbm, ⟨11, _⟩ => ⟨S8x2048x8, .f32⟩
  | .hbm, ⟨12, _⟩ => ⟨S8x2048x2048, .f32⟩
  | .hbm, ⟨13, _⟩ => ⟨S1x1x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x512, .f32⟩
  | .hbm, ⟨20, _⟩ => ⟨S1x1x512, .f32⟩
  | .hbm, ⟨21, _⟩ => ⟨S8x2048x512, .f32⟩
  | .hbm, ⟨22, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x2048x512_S8x2048x8_0_0_0 : S8x2048x512.Slices ![0, 0, 0] S8x2048x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  dot_S8x2048x8_S2048x8_S8x2048x2048_2_1_01_0_n_n_wf : DotDims.WF S8x2048x8 S2048x8 S8x2048x2048 [2] [1] [0, 1] [0] [] []
  dot_S8x2048x2048_S512x2048_S8x2048x512_2_1_01_0_n_n_wf : DotDims.WF S8x2048x2048 S512x2048 S8x2048x512 [2] [1] [0, 1] [0] [] []

variable [Facts₀]

def dot_S8x2048x8_S2048x8_S8x2048x2048_2_1_01_0_n_n : DotDims S8x2048x8 S2048x8 S8x2048x2048 where
  lhsContracting := [2]
  rhsContracting := [1]
  lhsNonContracting := [0, 1]
  rhsNonContracting := [0]
  lhsBatch := []
  rhsBatch := []
  wf := dot_S8x2048x8_S2048x8_S8x2048x2048_2_1_01_0_n_n_wf
def dot_S8x2048x2048_S512x2048_S8x2048x512_2_1_01_0_n_n : DotDims S8x2048x2048 S512x2048 S8x2048x512 where
  lhsContracting := [2]
  rhsContracting := [1]
  lhsNonContracting := [0, 1]
  rhsNonContracting := [0]
  lhsBatch := []
  rhsBatch := []
  wf := dot_S8x2048x2048_S512x2048_S8x2048x512_2_1_01_0_n_n_wf

class Facts : Prop extends Facts₀ where

variable [Facts]
-- ==== Proof.FeedForward.lean ====
/-
  The feed-forward head, one token at a time, on the extended reals.

  A token is a row of the input; only its first eight entries matter. Feature q of the token is
  cos(x q) · cos(ry q); the hidden unit f is the rectified affine form
      h f = max (Σ_q (cos(x q) · cos(ry q)) · w1(f, q) + b1 f) 0,
  and output e of the token is  Σ_f h f · w2(e, f) + b2 e.   (`hiddenRow`, `outRow`)

  The same numbers can be accumulated differently: the eight products of a hidden unit added one after the
  other onto 0, the rotation cosine folded into the weight (`foldedHidden`); and the contraction over the hidden
  units taken three times — against a weight, against that weight's remainder, and with the hidden unit's own
  remainder against the weight (`splitOut`). Where the weight and the hidden units are real numbers both
  remainders are 0 and the three contractions collapse to the first.
-/
import Idealize.ShloMosaic.PureOps.Ideal
import Idealize.ShloMosaic.Lib.ValueIdx

noncomputable section

open scoped BigOperators

namespace Cert.FeedForward

open Idealize.ShloMosaic Idealize.ShloMosaic.ValueIdx

/-- Feature lane `q` as a position in a token's row of 512 entries. -/
abbrev lane8 (q : Fin 8) : Fin 512 := ⟨q.val, lt_of_lt_of_le q.isLt (by decide)⟩

/-- Hidden unit `f` of a token whose first eight entries are `xr`. -/
def hiddenRow (xr : Fin 8 → EReal) (ry : (⟨1, ![8]⟩ : Shape).Idx → EReal) (w1 : (⟨2, ![2048, 8]⟩ : Shape).Idx → EReal)
    (b1 : (⟨1, ![2048]⟩ : Shape).Idx → EReal) (f : Fin 2048) : EReal :=
  max ((∑ q : Fin 8, (Ideal.cos (xr q) * Ideal.cos (ry (ix1 q))) * w1 (ix2 f q)) + b1 (ix1 f)) 0

/-- Output `e` of that token. -/
def outRow (xr : Fin 8 → EReal) (ry : (⟨1, ![8]⟩ : Shape).Idx → EReal) (w1 : (⟨2, ![2048, 8]⟩ : Shape).Idx → EReal)
    (b1 : (⟨1, ![2048]⟩ : Shape).Idx → EReal) (w2 : (⟨2, ![512, 2048]⟩ : Shape).Idx → EReal)
    (b2 : (⟨1, ![512]⟩ : Shape).Idx → EReal) (e : Fin 512) : EReal :=
  (∑ f : Fin 2048, hiddenRow xr ry w1 b1 f * w2 (ix2 e f)) + b2 (ix1 e)

/-- A hidden unit accumulated term after term onto 0 from the features `z` and the folded weights `ws`, then
    the bias, then rectified. -/
def foldedHidden (z ws : Fin 8 → EReal) (b : EReal) : EReal :=
  max (((((((((0 + z 0 * ws 0) + z 1 * ws 1) + z 2 * ws 2) + z 3 * ws 3) + z 4 * ws 4) + z 5 * ws 5)
    + z 6 * ws 6) + z 7 * ws 7) + b) 0

/-- An output from the hidden units `r`: the contraction against `whi`, plus the contraction against `wlo`, plus
    the contraction of the hidden units' remainders `r - r` against `whi`, plus the bias. -/
def splitOut (r whi wlo : Fin 2048 → EReal) (b : EReal) : EReal :=
  (((∑ f : Fin 2048, r f * whi f) + (∑ f : Fin 2048, r f * wlo f)) + (∑ f : Fin 2048, (r f - r f) * whi f)) + b

end Cert.FeedForward

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«116817_j65481071395761_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.BodyRow.lean ====
/-
  The kernel body's output block, one entry at a time, on the extended reals.

  The body reads the first eight columns of its token block, the eight rows of folded first-layer weights, the
  first-layer bias row, the two second-layer weight blocks and the second-layer bias row, and stores one block.
  Entry (p, j) of that block is computed as follows. The cosines of token p's eight features are multiplied, one
  feature after the other, by the matching row of folded weights at hidden unit f and added onto 0; the bias at f is
  added and the maximum with 0 taken: this is hidden unit f of token p, the specification's `foldedHidden`. The hidden
  units are then contracted three times over f — against column j of the first weight block, against column j of the
  second, and (their remainder h − h) against column j of the first again — each contraction into a zero accumulator;
  the three are added and the bias at j is added: the specification's `splitOut`.

  The steps: a load through a rectangle read at an index (`ld_corner`, `ld_row`); a column of the cosine block and a
  row of weights repeated over the [1024, 2048] block, read at an index (`col_apply`, `row_apply`); the partial sums
  of the eight products (`pay2_apply` … `hid_apply`, `hidden_apply`); the product into a zero accumulator as a sum
  over the contracted axis (`plainD`, `pay5_apply`); and the assembly (`body_apply`).
-/
import proofs.«116817_j65481071395761_2_alg».proof.Proof.Gen.KernelIdeal.Frame
import proofs.«116817_j65481071395761_2_alg».proof.Proof.Gen.KernelIdeal.Skeleton
import proofs.«116817_j65481071395761_2_alg».proof.Proof.FeedForward
import proofs.«116817_j65481071395761_2_alg».proof.Proof.LibHostRead
import proofs.«116817_j65481071395761_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.FeedForward

open Idealize.ShloMosaic Idealize.ShloMosaic.ValueIdx Cert.KernelIdeal Cert.KernelIdeal.Gen
open Cert.LibHostRead Cert.LibPlainDot

namespace BodyRow

theorem hz : (![0, 0] : Fin 2 → Nat) = fun _ => 0 := funext fun a => by fin_cases a <;> rfl

/-- The load of the token block's first eight columns reads the block at the same row and column. -/
theorem ld_corner (x0 : Vec Ideal S1024x512 .f32) (p : Fin 1024) (q : Fin 8) :
    View.ld x0 r0_0 (ix2 p q) = x0 (ix2 p (lane8 q)) := by
  show x0 _ = x0 _
  refine congrArg x0 (funext fun a => Fin.ext ?_)
  match a with
  | ⟨0, _⟩ => show 0 + 1 * p.val = p.val; omega
  | ⟨1, _⟩ => show 0 + 1 * q.val = q.val; omega

/-- The load of row o of the folded weights reads, at column f, the weights at (o, f). -/
theorem ld_row (x1 : Vec Ideal S8x2048 .f32) (o : Nat) (inb : ∀ a, (![o, 0] : Fin 2 → Nat) a + S1x2048.size a ≤ S8x2048.size a)
    (q : Fin 8) (hq : q.val = o) (f : Fin 2048) :
    View.ld x1 (Rect.unit (s := S8x2048) ![o, 0] S1x2048.size inb) (ix2 (0 : Fin 1) f) = x1 (ix2 q f) := by
  show x1 _ = x1 _
  refine congrArg x1 (funext fun a => Fin.ext ?_)
  match a with
  | ⟨0, _⟩ => show o + 1 * 0 = q.val; omega
  | ⟨1, _⟩ => show 0 + 1 * f.val = f.val; omega

/-- The rotation cosine block: cosine entry by entry. -/
theorem pay1_apply (v : Vec Ideal S1024x8 .f32) (p : Fin 1024) (q : Fin 8) :
    k0_pay1 v (ix2 p q) = Ideal.cos (v (ix2 p q)) := by
  unfold k0_pay1
  rw [shapeCast_self]
  rfl

/-- A column of a [1024, 8] block repeated along 2048 columns reads the block at (p, q). -/
theorem col_apply (z : FVec Ideal S1024x8 .f32) (o : Nat) (h : S1024x8.Slices ![0, o] S1024x1)
    (q : Fin 8) (hq : q.val = o) (p : Fin 1024) (f : Fin 2048) :
    broadcastTo S1024x2048 (extractStridedSlice S1024x1 ![0, o] z h) broadcasts_S1024x1_S1024x2048 (ix2 p f) = z (ix2 p q) := by
  refine (broadcastTo_apply _ broadcasts_S1024x1_S1024x2048 (ix2 p f) (ix2 p (0 : Fin 1)) fun a => ?_).trans ?_
  · match a with
    | ⟨0, _⟩ => rfl
    | ⟨1, _⟩ => rfl
  · exact slice2_axis1_apply o z h p (0 : Fin 1) q (by simpa using hq)

/-- A [1, 2048] row repeated along 1024 rows reads the row at f. -/
theorem row_apply (v : FVec Ideal S1x2048 .f32) (p : Fin 1024) (f : Fin 2048) :
    broadcastTo S1024x2048 (shapeCast S1x2048 v shapeCasts_S1x2048_S1x2048) broadcasts_S1x2048_S1024x2048 (ix2 p f) = v (ix2 (0 : Fin 1) f) := by
  rw [shapeCast_self]
  exact broadcastTo_1b_ab_apply v broadcasts_S1x2048_S1024x2048 p f

/-- The splat of the zero word reads 0. -/
theorem zero_apply (s : Shape) (i : s.Idx) :
    (broadcast s (Scalar.ofBits (F := Ideal) .f32 0x00000000#32) : FVec Ideal s .f32) i = (0 : EReal) :=
  Ideal.ofBits_zero_f32

/-- The first five products of a hidden unit, added one after the other onto 0. -/
theorem pay2_apply (v0 : Vec Ideal S1024x8 .f32) (v5 v12 v19 v26 v33 : Vec Ideal S1x2048 .f32) (p : Fin 1024) (f : Fin 2048) :
    k0_pay2 v0 v5 v12 v19 v26 v33 (ix2 p f)
      = (((((0 : EReal) + Ideal.cos (v0 (ix2 p (0 : Fin 8))) * v5 (ix2 (0 : Fin 1) f))
          + Ideal.cos (v0 (ix2 p (1 : Fin 8))) * v12 (ix2 (0 : Fin 1) f))
          + Ideal.cos (v0 (ix2 p (2 : Fin 8))) * v19 (ix2 (0 : Fin 1) f))
          + Ideal.cos (v0 (ix2 p (3 : Fin 8))) * v26 (ix2 (0 : Fin 1) f))
          + Ideal.cos (v0 (ix2 p (4 : Fin 8))) * v33 (ix2 (0 : Fin 1) f) := by
  unfold k0_pay2
  simp only [addf_apply, mulf_apply]
  rw [row_apply v5 p f, row_apply v12 p f, row_apply v19 p f, row_apply v26 p f, row_apply v33 p f,
    col_apply (k0_pay1 v0) 0 _ (0 : Fin 8) rfl, col_apply (k0_pay1 v0) 1 _ (1 : Fin 8) rfl,
    col_apply (k0_pay1 v0) 2 _ (2 : Fin 8) rfl, col_apply (k0_pay1 v0) 3 _ (3 : Fin 8) rfl,
    col_apply (k0_pay1 v0) 4 _ (4 : Fin 8) rfl, zero_apply]
  simp only [pay1_apply]

/-- The sixth feature, repeated along the hidden units. -/
theorem pay3_apply (v0 : Vec Ideal S1024x8 .f32) (p : Fin 1024) (f : Fin 2048) :
    k0_pay3 v0 (ix2 p f) = Ideal.cos (v0 (ix2 p (5 : Fin 8))) := by
  unfold k0_pay3
  rw [col_apply (k0_pay1 v0) 5 _ (5 : Fin 8) rfl, pay1_apply]

/-- The sixth row of folded weights, repeated along the tokens. -/
theorem pay4_apply (v40 : Vec Ideal S1x2048 .f32) (p : Fin 1024) (f : Fin 2048) :
    k0_pay4 v40 (ix2 p f) = v40 (ix2 (0 : Fin 1) f) := by
  unfold k0_pay4
  exact row_apply v40 p f

/-- The hidden block from the first five products: the sixth, seventh and eighth products and the bias added on,
    then the maximum with 0. -/
def hid (v2 : FVec Ideal S1024x8 .f32) (v38 v42 v43 : FVec Ideal S1024x2048 .f32) (v47 v54 v60 : Vec Ideal S1x2048 .f32) :
    FVec Ideal S1024x2048 .f32 :=
  maximumf
    (addf
      (addf
        (addf (addf v38 (mulf v42 v43))
          (mulf (broadcastTo S1024x2048 (extractStridedSlice S1024x1 ![0, 6] v2 slices_S1024x8_o0_6_S1024x1) broadcasts_S1024x1_S1024x2048)
            (broadcastTo S1024x2048 (shapeCast S1x2048 v47 shapeCasts_S1x2048_S1x2048) broadcasts_S1x2048_S1024x2048)))
        (mulf (broadcastTo S1024x2048 (extractStridedSlice S1024x1 ![0, 7] v2 slices_S1024x8_o0_7_S1024x1) broadcasts_S1024x1_S1024x2048)
          (broadcastTo S1024x2048 (shapeCast S1x2048 v54 shapeCasts_S1x2048_S1x2048) broadcasts_S1x2048_S1024x2048)))
      (broadcastTo S1024x2048 (shapeCast S1x2048 v60 shapeCasts_S1x2048_S1x2048) broadcasts_S1x2048_S1024x2048))
    (broadcast S1024x2048 (Scalar.ofBits (F := Ideal) .f32 0x00000000#32))

/-- The hidden block at (p, f). -/
theorem hid_apply (v2 : FVec Ideal S1024x8 .f32) (v38 v42 v43 : FVec Ideal S1024x2048 .f32) (v47 v54 v60 : Vec Ideal S1x2048 .f32)
    (p : Fin 1024) (f : Fin 2048) :
    hid v2 v38 v42 v43 v47 v54 v60 (ix2 p f)
      = max ((((v38 (ix2 p f) + v42 (ix2 p f) * v43 (ix2 p f)) + v2 (ix2 p (6 : Fin 8)) * v47 (ix2 (0 : Fin 1) f))
          + v2 (ix2 p (7 : Fin 8)) * v54 (ix2 (0 : Fin 1) f)) + v60 (ix2 (0 : Fin 1) f)) (0 : EReal) := by
  unfold hid
  simp only [maximumf_apply, addf_apply, mulf_apply]
  rw [row_apply v47 p f, row_apply v54 p f, row_apply v60 p f,
    col_apply v2 6 _ (6 : Fin 8) rfl, col_apply v2 7 _ (7 : Fin 8) rfl, zero_apply]

/-- The body's stored block: three products of the hidden block (the third of its remainder) into zero accumulators,
    added, and the bias row. -/
theorem pay5_eq (v2 : FVec Ideal S1024x8 .f32) (v38 v42 v43 : FVec Ideal S1024x2048 .f32) (v47 v54 v60 : Vec Ideal S1x2048 .f32)
    (v70 v72 : Vec Ideal S2048x512 .bf16) (v79 : Vec Ideal S1x512 .f32) :
    k0_pay5 v2 v38 v42 v43 v47 v54 v60 v70 v72 v79
      = addf (addf (addf
          (matmul dot_S1024x2048_S2048x512_S1024x512_1_0_0_1_n_n none
            (truncf .bf16 (hid v2 v38 v42 v43 v47 v54 v60) bitsLt_bf16_f32)
            (shapeCast S2048x512 v70 shapeCasts_S2048x512_S2048x512 : FVec Ideal S2048x512 .bf16) (constant (F := Ideal) S1024x512 .f32 0x00000000#32))
          (matmul dot_S1024x2048_S2048x512_S1024x512_1_0_0_1_n_n none
            (truncf .bf16 (hid v2 v38 v42 v43 v47 v54 v60) bitsLt_bf16_f32)
            (shapeCast S2048x512 v72 shapeCasts_S2048x512_S2048x512 : FVec Ideal S2048x512 .bf16) (constant (F := Ideal) S1024x512 .f32 0x00000000#32)))
          (matmul dot_S1024x2048_S2048x512_S1024x512_1_0_0_1_n_n none
            (truncf .bf16 (subf (hid v2 v38 v42 v43 v47 v54 v60) (hid v2 v38 v42 v43 v47 v54 v60)) bitsLt_bf16_f32)
            (shapeCast S2048x512 v70 shapeCasts_S2048x512_S2048x512 : FVec Ideal S2048x512 .bf16) (constant (F := Ideal) S1024x512 .f32 0x00000000#32)))
        (broadcastTo S1024x512 (shapeCast S1x512 v79 shapeCasts_S1x512_S1x512) broadcasts_S1x512_S1024x512) := rfl

/-- The body's product is rows times columns: left operand contracted on its second axis, right on its first. -/
theorem plainD : PlainDot dot_S1024x2048_S2048x512_S1024x512_1_0_0_1_n_n where
  hr := rfl
  hs := rfl
  hl0 := fun i q => by
    unfold DotDims.lhsIdx
    rw [dif_neg (show ¬(0 : Fin S1024x2048.rank) ∈ dot_S1024x2048_S2048x512_S1024x512_1_0_0_1_n_n.lhsBatch by decide),
      dif_pos (show (0 : Fin S1024x2048.rank) ∈ dot_S1024x2048_S2048x512_S1024x512_1_0_0_1_n_n.lhsNonContracting by decide)]
    rfl
  hl1 := fun i q => dot_S1024x2048_S2048x512_S1024x512_1_0_0_1_n_n.lhsIdx_val_of_single rfl i q
  hr0 := fun i q => dot_S1024x2048_S2048x512_S1024x512_1_0_0_1_n_n.rhsIdx_val_of_single rfl i q
  hr1 := fun i q => by
    unfold DotDims.rhsIdx
    rw [dif_neg (show ¬(1 : Fin S2048x512.rank) ∈ dot_S1024x2048_S2048x512_S1024x512_1_0_0_1_n_n.rhsBatch by decide),
      dif_pos (show (1 : Fin S2048x512.rank) ∈ dot_S1024x2048_S2048x512_S1024x512_1_0_0_1_n_n.rhsNonContracting by decide)]
    rfl

/-- The body's stored block at (p, j): three contractions over the hidden units and the bias. -/
theorem pay5_apply (v2 : FVec Ideal S1024x8 .f32) (v38 v42 v43 : FVec Ideal S1024x2048 .f32) (v47 v54 v60 : Vec Ideal S1x2048 .f32)
    (v70 v72 : Vec Ideal S2048x512 .bf16) (v79 : Vec Ideal S1x512 .f32) (p : Fin 1024) (j : Fin 512) :
    k0_pay5 v2 v38 v42 v43 v47 v54 v60 v70 v72 v79 (ix2 p j)
      = (((∑ f : Fin 2048, hid v2 v38 v42 v43 v47 v54 v60 (ix2 p f) * v70 (ix2 f j))
          + (∑ f : Fin 2048, hid v2 v38 v42 v43 v47 v54 v60 (ix2 p f) * v72 (ix2 f j)))
          + (∑ f : Fin 2048, (hid v2 v38 v42 v43 v47 v54 v60 (ix2 p f) - hid v2 v38 v42 v43 v47 v54 v60 (ix2 p f)) * v70 (ix2 f j)))
        + v79 (ix2 (0 : Fin 1) j) := by
  rw [pay5_eq]
  simp only [addf_apply]
  rw [shapeCast_self, shapeCast_self, shapeCast_self,
    vmatmul_apply (φ₁ := .bf16) (φ₂ := .bf16) dot_S1024x2048_S2048x512_S1024x512_1_0_0_1_n_n plainD _ v70 p j,
    vmatmul_apply (φ₁ := .bf16) (φ₂ := .bf16) dot_S1024x2048_S2048x512_S1024x512_1_0_0_1_n_n plainD _ v72 p j,
    vmatmul_apply (φ₁ := .bf16) (φ₂ := .bf16) dot_S1024x2048_S2048x512_S1024x512_1_0_0_1_n_n plainD _ v70 p j,
    broadcastTo_1b_ab_apply v79 broadcasts_S1x512_S1024x512 p j]
  rfl

/-- The hidden block of the loaded blocks at (p, f) is the hidden unit accumulated term after term. -/
theorem hidden_apply (x0 : Vec Ideal S1024x512 .f32) (x1 : Vec Ideal S8x2048 .f32) (x2 : Vec Ideal S1x2048 .f32)
    (p : Fin 1024) (f : Fin 2048) :
    hid (k0_pay1 (View.ld x0 r0_0))
        (k0_pay2 (View.ld x0 r0_0) (View.ld x1 r0_1) (View.ld x1 r0_2) (View.ld x1 r0_3) (View.ld x1 r0_4) (View.ld x1 r0_5))
        (k0_pay3 (View.ld x0 r0_0)) (k0_pay4 (View.ld x1 r0_6)) (View.ld x1 r0_7) (View.ld x1 r0_8) x2 (ix2 p f)
      = foldedHidden (fun q => Ideal.cos (x0 (ix2 p (lane8 q)))) (fun q => x1 (ix2 q f)) (x2 (ix2 (0 : Fin 1) f)) := by
  rw [hid_apply, pay2_apply, pay3_apply, pay4_apply, pay1_apply, pay1_apply]
  rw [ld_corner x0 p 0, ld_corner x0 p 1, ld_corner x0 p 2, ld_corner x0 p 3, ld_corner x0 p 4, ld_corner x0 p 5,
    ld_corner x0 p 6, ld_corner x0 p 7,
    ld_row x1 0 _ (0 : Fin 8) rfl f, ld_row x1 1 _ (1 : Fin 8) rfl f, ld_row x1 2 _ (2 : Fin 8) rfl f,
    ld_row x1 3 _ (3 : Fin 8) rfl f, ld_row x1 4 _ (4 : Fin 8) rfl f, ld_row x1 5 _ (5 : Fin 8) rfl f,
    ld_row x1 6 _ (6 : Fin 8) rfl f, ld_row x1 7 _ (7 : Fin 8) rfl f]
  rfl

end BodyRow

open BodyRow in
/-- What the body stores at (p, j) of its output block: the three contractions of the hidden units of token p
    against column j of the two weight blocks, and the bias. -/
theorem body_apply (x0 : Vec Ideal S1024x512 .f32) (x1 : Vec Ideal S8x2048 .f32) (x2 : Vec Ideal S1x2048 .f32) (x3 x4 : Vec Ideal S2048x512 .bf16) (x5 : Vec Ideal S1x512 .f32) (p : Fin 1024) (j : Fin 512) :
    out0_6 (F := Ideal) x0 x1 x2 x3 x4 x5 (ix2 p j)
      = splitOut (fun f => foldedHidden (fun q => Ideal.cos (x0 (ix2 p (lane8 q)))) (fun q => x1 (ix2 q f)) (x2 (ix2 (0 : Fin 1) f)))
          (fun f => x3 (ix2 f j)) (fun f => x4 (ix2 f j)) (x5 (ix2 (0 : Fin 1) j)) := by
  unfold out0_6
  rw [View.canon_unit_zero hz, View.ld_unit_zero (S := S1x2048) hz, View.ld_unit_zero (S := S2048x512) hz,
    View.ld_unit_zero (S := S2048x512) hz, View.ld_unit_zero (S := S1x512) hz, pay5_apply]
  simp only [hidden_apply]
  rfl

end Cert.FeedForward

end
-- ==== Proof.RegionValue.lean ====
/-
  The region's output array, and the program's result after the reshape that follows the region.

  The region runs over 16 points; point t is handed rows 1024 t … 1024 t + 1023 of the [16384, 512] token array
  and, whole, the folded first-layer weights [8, 2048], the hidden bias [1, 2048], the second-layer weight
  [2048, 512] and its remainder, and the output bias [1, 512]; it writes rows 1024 t … 1024 t + 1023 of the
  [16384, 512] output array. Position (p, j) of that block is the body's value at (p, j) of the blocks it was
  handed, so row r = 1024 t + p of the output array is `regionAt r`: the body's accumulation over row r of the
  token array and the whole weight arrays. The 16 blocks tile the output array, so it ends holding `regionOut`
  everywhere; the result of the program is that array read in row-major order as [8, 2048, 512].
-/
import proofs.«116817_j65481071395761_2_alg».proof.Proof.Gen.KernelIdeal.Frame
import proofs.«116817_j65481071395761_2_alg».proof.Proof.FeedForward
import proofs.«116817_j65481071395761_2_alg».proof.Proof.BodyRow
import Idealize.ShloMosaic.Lib.Pipeline.Value
import Idealize.ShloMosaic.Lib.ValueIdx
import Idealize.ShloMosaic.Lib.StableHlo.Run

noncomputable section

namespace Cert.FeedForward

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-! ## Which block each point is handed -/

/-- The block indices over the 16 points: the token window and the output window are at block (t, 0), every
    weight window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The region has 16 points. -/
theorem points_eq : cfg0.N = 16 := by decide +kernel

/-- Row p of point t's block of tokens is row 1024 t + p of the token array. -/
theorem tokens_blk (t : Fin cfg0.N) (p : Fin 1024) (j : Fin 512) (k : S16384x512.Idx)
    (hk0 : (k 0).val = t.val * 1024 + p.val) (hk1 : (k 1).val = j.val) :
    (iblk (F := Ideal) m c 0 t : Vec Ideal S1024x512 .f32) (ix2 p j) = (V (F := Ideal) m c main_v0 : S16384x512.Idx → EReal) k := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 1024 + 1 * p.val = (k 0).val; rw [e0, hk0]; omega
  | ⟨1, _⟩ => show win0_0.index t 1 * 512 + 1 * j.val = (k 1).val; rw [e1, hk1]; omega

/-- Every point's block of folded first-layer weights is the whole array. -/
theorem weights_blk (t : Fin cfg0.N) (q : Fin 8) (f : Fin 2048) :
    (iblk (F := Ideal) m c 1 t : Vec Ideal S8x2048 .f32) (ix2 q f) = (V (F := Ideal) m c main_v5 : S8x2048.Idx → EReal) (ix2 q f) := by
  obtain ⟨-, -, e0, e1, -⟩ := idx_facts t
  unfold iblk
  rw [View.read_apply]
  show V m c main_v5 _ = V m c main_v5 _
  congr 1
  funext a
  apply Fin.ext
  match a with
  | ⟨0, _⟩ => show win0_1.index t 0 * 8 + 1 * q.val = q.val; rw [e0]; omega
  | ⟨1, _⟩ => show win0_1.index t 1 * 2048 + 1 * f.val = f.val; rw [e1]; omega

/-- Every point's block of the hidden bias is the whole row. -/
theorem hiddenBias_blk (t : Fin cfg0.N) (f : Fin 2048) :
    (iblk (F := Ideal) m c 2 t : Vec Ideal S1x2048 .f32) (ix2 (0 : Fin 1) f) = (V (F := Ideal) m c main_v6 : S1x2048.Idx → EReal) (ix2 (0 : Fin 1) f) := by
  obtain ⟨-, -, -, -, e0, e1, -⟩ := idx_facts t
  unfold iblk
  rw [View.read_apply]
  show V m c main_v6 _ = V m c main_v6 _
  congr 1
  funext a
  apply Fin.ext
  match a with
  | ⟨0, _⟩ => show win0_2.index t 0 * 1 + 1 * 0 = 0; rw [e0]
  | ⟨1, _⟩ => show win0_2.index t 1 * 2048 + 1 * f.val = f.val; rw [e1]; omega

/-- Every point's block of the second-layer weight is the whole array. -/
theorem weightHi_blk (t : Fin cfg0.N) (f : Fin 2048) (j : Fin 512) :
    (iblk (F := Ideal) m c 3 t : Vec Ideal S2048x512 .bf16) (ix2 f j) = (V (F := Ideal) m c main_v8 : S2048x512.Idx → EReal) (ix2 f j) := by
  obtain ⟨-, -, -, -, -, -, e0, e1, -⟩ := idx_facts t
  unfold iblk
  rw [View.read_apply]
  show V m c main_v8 _ = V m c main_v8 _
  congr 1
  funext a
  apply Fin.ext
  match a with
  | ⟨0, _⟩ => show win0_3.index t 0 * 2048 + 1 * f.val = f.val; rw [e0]; omega
  | ⟨1, _⟩ => show win0_3.index t 1 * 512 + 1 * j.val = j.val; rw [e1]; omega

/-- Every point's block of the second-layer weight's remainder is the whole array. -/
theorem weightLo_blk (t : Fin cfg0.N) (f : Fin 2048) (j : Fin 512) :
    (iblk (F := Ideal) m c 4 t : Vec Ideal S2048x512 .bf16) (ix2 f j) = (V (F := Ideal) m c main_v11 : S2048x512.Idx → EReal) (ix2 f j) := by
  obtain ⟨-, -, -, -, -, -, -, -, e0, e1, -⟩ := idx_facts t
  unfold iblk
  rw [View.read_apply]
  show V m c main_v11 _ = V m c main_v11 _
  congr 1
  funext a
  apply Fin.ext
  match a with
  | ⟨0, _⟩ => show win0_4.index t 0 * 2048 + 1 * f.val = f.val; rw [e0]; omega
  | ⟨1, _⟩ => show win0_4.index t 1 * 512 + 1 * j.val = j.val; rw [e1]; omega

/-- Every point's block of the output bias is the whole row. -/
theorem outBias_blk (t : Fin cfg0.N) (j : Fin 512) :
    (iblk (F := Ideal) m c 5 t : Vec Ideal S1x512 .f32) (ix2 (0 : Fin 1) j) = (V (F := Ideal) m c main_v12 : S1x512.Idx → EReal) (ix2 (0 : Fin 1) j) := by
  obtain ⟨-, -, -, -, -, -, -, -, -, -, e0, e1, -⟩ := idx_facts t
  unfold iblk
  rw [View.read_apply]
  show V m c main_v12 _ = V m c main_v12 _
  congr 1
  funext a
  apply Fin.ext
  match a with
  | ⟨0, _⟩ => show win0_5.index t 0 * 1 + 1 * 0 = 0; rw [e0]
  | ⟨1, _⟩ => show win0_5.index t 1 * 512 + 1 * j.val = j.val; rw [e1]; omega

/-! ## The output array -/

/-- Output e of token row r, in the body's accumulation order, over the arrays the region is launched on. -/
def regionAt (r : Fin 16384) (e : Fin 512) : EReal :=
  splitOut (fun f => foldedHidden (fun q => Ideal.cos ((V (F := Ideal) m c main_v0 : S16384x512.Idx → EReal) (ix2 r (lane8 q))))
      (fun q => (V (F := Ideal) m c main_v5 : S8x2048.Idx → EReal) (ix2 q f)) ((V (F := Ideal) m c main_v6 : S1x2048.Idx → EReal) (ix2 (0 : Fin 1) f)))
    (fun f => (V (F := Ideal) m c main_v8 : S2048x512.Idx → EReal) (ix2 f e)) (fun f => (V (F := Ideal) m c main_v11 : S2048x512.Idx → EReal) (ix2 f e))
    ((V (F := Ideal) m c main_v12 : S1x512.Idx → EReal) (ix2 (0 : Fin 1) e))

/-- The region's output array. -/
def regionOut : S16384x512.Idx → EReal := fun i => regionAt m c (i 0) (i 1)

/-- What point t leaves at position y of its output block is the output array's value at row 1024 t + y 0. -/
theorem block_point (t : Fin cfg0.N) (y : S1024x512.Idx) (k : S16384x512.Idx)
    (hk0 : (k 0).val = t.val * 1024 + (y 0).val) (hk1 : (k 1).val = (y 1).val) :
    out0_6 (F := Ideal) (iblk m c 0 t) (iblk m c 1 t) (iblk m c 2 t) (iblk m c 3 t) (iblk m c 4 t) (iblk m c 5 t) y = regionOut m c k := by
  obtain ⟨p, j, rfl⟩ : ∃ (p : Fin 1024) (j : Fin 512), y = ix2 p j := ⟨y 0, y 1, eq_ix2 y⟩
  refine (body_apply (iblk m c 0 t) (iblk m c 1 t) (iblk m c 2 t) (iblk m c 3 t) (iblk m c 4 t) (iblk m c 5 t) p j).trans ?_
  have e1 : (k 1) = j := Fin.ext hk1
  have e0 : ∀ q : Fin 8, (iblk (F := Ideal) m c 0 t : Vec Ideal S1024x512 .f32) (ix2 p (lane8 q)) = (V (F := Ideal) m c main_v0 : S16384x512.Idx → EReal) (ix2 (k 0) (lane8 q)) :=
    fun q => tokens_blk m c t p (lane8 q) (ix2 (k 0) (lane8 q)) hk0 rfl
  unfold regionOut regionAt
  rw [e1]
  simp only [e0, weights_blk m c t, hiddenBias_blk m c t, weightHi_blk m c t, weightLo_blk m c t, outBias_blk m c t]

/-- What point t writes back is its block of the output array. -/
theorem flushed_eq (t : Fin cfg0.N) :
    (dats (F := Ideal) m 0 c).flushed 6 t = ((cfg0.win 6).blk t).view.read (Elt Ideal) (regionOut m c) := by
  show (cfg0.win 6).cut (grid0.coords t) ((dats (F := Ideal) m 0 c).after 6 t) = _
  rw [after0_6]
  obtain ⟨-, -, -, -, -, -, -, -, -, -, -, -, e0, e1⟩ := idx_facts t
  funext y
  rw [View.read_apply]
  refine block_point m c t y _ ?_ ?_
  · show win0_6.index t 0 * 1024 + 1 * (y 0).val = t.val * 1024 + (y 0).val
    rw [e0]; omega
  · show win0_6.index t 1 * 512 + 1 * (y 1).val = (y 1).val
    rw [e1]; omega

/-- An index of the output array is in point t's block iff each coordinate is in the block's range on its axis. -/
theorem mem_blk (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v13).slice (win0_6.rect t)).set ↔ _
  rw [View.set_slice_whole, Rect.mem_set_unit]
  exact Iff.rfl

/-- Row r of the output array is written back by point r / 1024: the 16 blocks tile the array. -/
theorem covered (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hlt : (i 0).val / 1024 < cfg0.N := by rw [points_eq]; omega
  obtain ⟨-, -, -, -, -, -, -, -, -, -, -, -, e0, e1⟩ := idx_facts ⟨(i 0).val / 1024, hlt⟩
  refine ⟨⟨(i 0).val / 1024, hlt⟩, flush0_6 _, ?_⟩
  rw [mem_blk]
  intro a
  match a with
  | ⟨0, _⟩ =>
    show win0_6.index ⟨(i 0).val / 1024, hlt⟩ 0 * 1024 ≤ (i 0).val ∧ (i 0).val < win0_6.index ⟨(i 0).val / 1024, hlt⟩ 0 * 1024 + 1024
    rw [e0]; show (i 0).val / 1024 * 1024 ≤ (i 0).val ∧ (i 0).val < (i 0).val / 1024 * 1024 + 1024; omega
  | ⟨1, _⟩ =>
    show win0_6.index ⟨(i 0).val / 1024, hlt⟩ 1 * 512 ≤ (i 1).val ∧ (i 1).val < win0_6.index ⟨(i 0).val / 1024, hlt⟩ 1 * 512 + 512
    rw [e1]; omega

/-- The output array after the region. -/
theorem region_final : (dats (F := Ideal) m 0 c).arrAt 6 cfg0.N = regionOut m c :=
  (dats (F := Ideal) m 0 c).arrAt_eq_of_cover 6 (regionOut m c) (fun t _ => flushed_eq m c t) covered

/-! ## The result -/

/-- The program's result: the output array read in row-major order as [8, 2048, 512]. -/
theorem result_eq : Pipeline.afterTail₀ cfgs (dats (F := Ideal) m) 0 (V0 m) [hostOps1] c main_v14
    = shapeCast S8x2048x512 (regionOut m c) shapeCasts_S16384x512_S8x2048x512 := by
  unfold Pipeline.afterTail₀
  show StableHlo.after hostOps1 _ (Proc.devRef .tc main_v14) = _
  after_results
  have hw : Pipeline.withArrays (cfgs 0).spec c (V0 (F := Ideal) m c) (fun w => (dats (F := Ideal) m 0 c).arrAt w (cfgs 0).N) (Proc.devRef .tc main_v13) = regionOut m c :=
    (Pipeline.withArrays_arr spec0 launch0.win.arr_inj c _ _ 6).trans (region_final m c)
  rw [hw]
  rfl

/-- Entry (b, s, e) of the result is row 2048 b + s of the output array. -/
theorem result_apply (b : Fin 8) (s : Fin 2048) (e : Fin 512) :
    (Pipeline.afterTail₀ cfgs (dats (F := Ideal) m) 0 (V0 m) [hostOps1] c main_v14 : S8x2048x512.Idx → EReal) (ix3 b s e)
      = regionAt m c ⟨b.val * 2048 + s.val, by have := b.isLt; have := s.isLt; omega⟩ e := by
  rw [result_eq]
  refine (shapeCast_apply (regionOut m c) shapeCasts_S16384x512_S8x2048x512 (ix3 b s e)
    (ix2 (⟨b.val * 2048 + s.val, by have := b.isLt; have := s.isLt; omega⟩ : Fin 16384) e) ?_).trans rfl
  rw [Shape.rowMajor_val_two, Shape.rowMajor_val_three]
  show (b.val * 2048 + s.val) * 512 + e.val = (b.val * 2048 + s.val) * 512 + e.val
  rfl

end Cert.FeedForward

end
-- ==== Proof.HostPrefix.lean ====
/-
  The arrays the feed-forward region is entered on, read one entry at a time.

  Before the region the program prepares six arrays from its arguments, none of them by arithmetic on more than two
  entries. The tokens are the input `x` with its first two axes merged: row `t` of the merged array is row
  `t mod 2048` of slab `t div 2048`. The folded weights are `w1` times the cosine of the rotation `ry` (the
  cosines laid along every row of `w1`), then transposed: entry `(q, f)` is `w1 (f, q) · cos (ry q)`. The two biases
  are the vectors `b1` and `b2` written as single rows. The weight of the second layer is `w2` transposed and
  narrowed, and its remainder is that transposed `w2` minus its own narrowing widened back, narrowed again; on the
  extended reals narrowing and widening change nothing, so the first is `w2 (j, f)` at `(f, j)` and the second is
  `w2 (j, f) - w2 (j, f)`.
-/
import proofs.«116817_j65481071395761_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import proofs.«116817_j65481071395761_2_alg».proof.Proof.LibHostRead
import proofs.«116817_j65481071395761_2_alg».proof.Proof.FeedForward

noncomputable section

namespace Cert.FeedForward

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (c : Dev nD)

/-! ## The tokens: `x` with its two leading axes merged -/

/-- Merging the two leading axes of an `[8, 2048, 512]` array: row `t` of the result is row `t mod 2048` of slab
    `t div 2048`, both sitting at row-major position `t · 512 + j`. -/
theorem shapeCast_merge_apply {α : Type} (x : (⟨3, ![8, 2048, 512]⟩ : Shape).Idx → α)
    (h : (⟨3, ![8, 2048, 512]⟩ : Shape).ShapeCasts ⟨2, ![16384, 512]⟩) (t : Fin 16384) (j : Fin 512) :
    shapeCast ⟨2, ![16384, 512]⟩ x h (ix2 t j)
      = x (ix3 (⟨t.val / 2048, by have := t.isLt; omega⟩ : Fin 8) (⟨t.val % 2048, Nat.mod_lt _ (by decide)⟩ : Fin 2048) j) :=
  shapeCast_apply x h _ _ (by
    rw [Shape.rowMajor_val_three, Shape.rowMajor_val_two]
    show (t.val / 2048 * 2048 + t.val % 2048) * 512 + j.val = t.val * 512 + j.val
    omega)

/-- The token array is `x` recast from `[8, 2048, 512]` to `[16384, 512]`. -/
theorem tokens_eq :
    (V (F := Ideal) m c main_v0 : S16384x512.Idx → EReal)
      = shapeCast S16384x512 (m ((c.tc : Thread nD τ).loc main_arg0) : S8x2048x512.Idx → EReal)
          shapeCasts_S8x2048x512_S16384x512 := by
  show StableHlo.after hostOps0 (fun b => m (c, b)) (Proc.devRef .tc main_v0) = _
  after_results
  rfl

/-- Row `t` of the tokens is row `t mod 2048` of slab `t div 2048` of `x`. -/
theorem tokens_apply (t : Fin 16384) (j : Fin 512) :
    (V (F := Ideal) m c main_v0 : S16384x512.Idx → EReal) (ix2 t j)
      = (m ((c.tc : Thread nD τ).loc main_arg0) : S8x2048x512.Idx → EReal) (ix3 (⟨t.val / 2048, by have := t.isLt; omega⟩ : Fin 8) (⟨t.val % 2048, Nat.mod_lt _ (by decide)⟩ : Fin 2048) j) := by
  rw [tokens_eq]
  exact shapeCast_merge_apply _ _ t j

/-! ## The folded weights: `w1` times the rotation's cosine, transposed -/

/-- The folded weights are the transpose of `w1` times the cosines of `ry` laid along every row. -/
theorem foldedWeights_eq :
    (V (F := Ideal) m c main_v5 : S8x2048.Idx → EReal)
      = transpose (α := EReal) S8x2048 [1, 0]
          (mulf (F := Ideal) (s := S2048x8) (φ := .f32) (m ((c.tc : Thread nD τ).loc main_arg2))
            (broadcastInDim (α := EReal) S2048x8 ![0, 1] bcast_S1x8_S2048x8_0_1
              (broadcastInDim (α := EReal) S1x8 ![1] bcast_S8_S1x8_1
                (Host.cos (F := Ideal) (s := S8) (φ := .f32) (m ((c.tc : Thread nD τ).loc main_arg1))))))
          transposes_S2048x8_S8x2048_1_0 := by
  show StableHlo.after hostOps0 (fun b => m (c, b)) (Proc.devRef .tc main_v5) = _
  after_results

/-- Entry `(q, f)` of the folded weights is `w1 (f, q) · cos (ry q)`. -/
theorem foldedWeights_apply (q : Fin 8) (f : Fin 2048) :
    (V (F := Ideal) m c main_v5 : S8x2048.Idx → EReal) (ix2 q f)
      = HMul.hMul (α := EReal) (β := EReal) ((m ((c.tc : Thread nD τ).loc main_arg2) : S2048x8.Idx → EReal) (ix2 f q))
          (Ideal.cos ((m ((c.tc : Thread nD τ).loc main_arg1) : S8.Idx → EReal) (ix1 q))) := by
  rw [foldedWeights_eq, transpose_ix2_apply, mulf_apply, Cert.LibHostRead.bid_1b_ab_apply, Cert.LibHostRead.bid_b_1b_apply]
  rfl

/-! ## The two biases: a vector written as one row -/

/-- The hidden bias array is `b1` recast from `[2048]` to `[1, 2048]`. -/
theorem hiddenBias_eq :
    (V (F := Ideal) m c main_v6 : S1x2048.Idx → EReal)
      = shapeCast S1x2048 (m ((c.tc : Thread nD τ).loc main_arg3) : S2048.Idx → EReal) shapeCasts_S2048_S1x2048 := by
  show StableHlo.after hostOps0 (fun b => m (c, b)) (Proc.devRef .tc main_v6) = _
  after_results
  rfl

/-- Its one row is `b1`. -/
theorem hiddenBias_apply (f : Fin 2048) :
    (V (F := Ideal) m c main_v6 : S1x2048.Idx → EReal) (ix2 (0 : Fin 1) f) = (m ((c.tc : Thread nD τ).loc main_arg3) : S2048.Idx → EReal) (ix1 f) := by
  rw [hiddenBias_eq]
  exact shapeCast_a_1a_apply _ _ _ f

/-- The output bias array is `b2` recast from `[512]` to `[1, 512]`. -/
theorem outBias_eq :
    (V (F := Ideal) m c main_v12 : S1x512.Idx → EReal)
      = shapeCast S1x512 (m ((c.tc : Thread nD τ).loc main_arg5) : S512.Idx → EReal) shapeCasts_S512_S1x512 := by
  show StableHlo.after hostOps0 (fun b => m (c, b)) (Proc.devRef .tc main_v12) = _
  after_results
  rfl

/-- Its one row is `b2`. -/
theorem outBias_apply (j : Fin 512) :
    (V (F := Ideal) m c main_v12 : S1x512.Idx → EReal) (ix2 (0 : Fin 1) j) = (m ((c.tc : Thread nD τ).loc main_arg5) : S512.Idx → EReal) (ix1 j) := by
  rw [outBias_eq]
  exact shapeCast_a_1a_apply _ _ _ j

/-! ## The second layer's weight and its remainder -/

/-- The weight is `w2` transposed, then narrowed. -/
theorem weightHi_eq :
    (V (F := Ideal) m c main_v8 : S2048x512.Idx → EReal)
      = truncf (F := Ideal) (s := S2048x512) (φ := .f32) .bf16
          (transpose (α := EReal) S2048x512 [1, 0] (m ((c.tc : Thread nD τ).loc main_arg4))
            transposes_S512x2048_S2048x512_1_0)
          bitsLt_bf16_f32 := by
  show StableHlo.after hostOps0 (fun b => m (c, b)) (Proc.devRef .tc main_v8) = _
  after_results

/-- Narrowing changes no extended real: entry `(f, j)` of the weight is `w2 (j, f)`. -/
theorem weightHi_apply (f : Fin 2048) (j : Fin 512) :
    (V (F := Ideal) m c main_v8 : S2048x512.Idx → EReal) (ix2 f j) = (m ((c.tc : Thread nD τ).loc main_arg4) : S512x2048.Idx → EReal) (ix2 j f) := by
  rw [weightHi_eq, truncf_apply, transpose_ix2_apply]

/-- The remainder is the transposed `w2` minus its own narrowing widened back, narrowed again. -/
theorem weightLo_eq :
    (V (F := Ideal) m c main_v11 : S2048x512.Idx → EReal)
      = truncf (F := Ideal) (s := S2048x512) (φ := .f32) .bf16
          (subf (F := Ideal) (s := S2048x512) (φ := .f32)
            (transpose (α := EReal) S2048x512 [1, 0] (m ((c.tc : Thread nD τ).loc main_arg4))
              transposes_S512x2048_S2048x512_1_0)
            (extf (F := Ideal) (s := S2048x512) (φ := .bf16) .f32
              (truncf (F := Ideal) (s := S2048x512) (φ := .f32) .bf16
                (transpose (α := EReal) S2048x512 [1, 0] (m ((c.tc : Thread nD τ).loc main_arg4))
                  transposes_S512x2048_S2048x512_1_0)
                bitsLt_bf16_f32)
              bitsLt_bf16_f32))
          bitsLt_bf16_f32 := by
  show StableHlo.after hostOps0 (fun b => m (c, b)) (Proc.devRef .tc main_v11) = _
  after_results

/-- Narrowing and widening change no extended real: entry `(f, j)` of the remainder is `w2 (j, f) - w2 (j, f)`. -/
theorem weightLo_apply (f : Fin 2048) (j : Fin 512) :
    (V (F := Ideal) m c main_v11 : S2048x512.Idx → EReal) (ix2 f j)
      = HSub.hSub (α := EReal) (β := EReal) ((m ((c.tc : Thread nD τ).loc main_arg4) : S512x2048.Idx → EReal) (ix2 j f))
          ((m ((c.tc : Thread nD τ).loc main_arg4) : S512x2048.Idx → EReal) (ix2 j f)) := by
  rw [weightLo_eq, truncf_apply, subf_apply, extf_apply, truncf_apply, transpose_ix2_apply]

end Cert.FeedForward

end
-- ==== Proof.LibSplitAccumulate.lean ====
/-
  Pure algebra on the extended reals for a contraction that is accumulated in halves and whose right operand is
  split into a rounded part and its remainder.

  * A sum over an index set of even size is the sum over its lower half plus the sum over its upper half.
  * For a real x the remainder x - x is 0, so a·x + a·(x - x) = a·x for every extended real a (a·0 = 0 holds on
    all extended reals); hence a contraction against the split operand is the contraction against the operand itself.
  * Reals are closed under +, ·, max and finite sums, as extended reals.
  * The two-step accumulation ((0 + S₀) + S₁) + h, clipped at 0, is max (h + (S₀ + S₁)) 0: only commutativity and
    associativity of + and 0 + x = x, which hold on all extended reals.
-/
import Mathlib.Algebra.BigOperators.Fin
import Idealize.ShloMosaic.PureOps.Ideal

noncomputable section

open scoped BigOperators

namespace Cert.SplitAccumulate

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of reals is real. -/
theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The remainder of a real against itself is zero. -/
theorem sub_self_of_isReal {x : EReal} (hx : IsReal x) : x - x = 0 := by
  obtain ⟨r, rfl⟩ := hx
  rw [← EReal.coe_sub, sub_self, EReal.coe_zero]

/-- One product against the split operand: the remainder's product vanishes. -/
theorem mul_split (a : EReal) {x : EReal} (hx : IsReal x) : a * x + a * (x - x) = a * x := by
  rw [sub_self_of_isReal hx, mul_zero, add_zero]

/-- A contraction against the remainder of a real operand is zero. -/
theorem sum_mul_remainder {ι : Type*} [Fintype ι] (a x : ι → EReal) (hx : ∀ k, IsReal (x k)) :
    ∑ k, a k * (x k - x k) = 0 :=
  Finset.sum_eq_zero fun k _ => by rw [sub_self_of_isReal (hx k), mul_zero]

/-- A contraction against the split operand is the contraction against the operand. -/
theorem sum_split {ι : Type*} [Fintype ι] (a x : ι → EReal) (hx : ∀ k, IsReal (x k)) :
    ∑ k, a k * x k + ∑ k, a k * (x k - x k) = ∑ k, a k * x k := by
  rw [sum_mul_remainder a x hx, add_zero]

/-- A sum over an index set of size n + n is the sum over the lower half plus the sum over the upper half. -/
theorem sum_halves {M : Type*} [AddCommMonoid M] {n m : ℕ} (h : n + n = m) (f : Fin m → M) :
    ∑ v, f v = ∑ k : Fin n, f ⟨k.val, by omega⟩ + ∑ k : Fin n, f ⟨n + k.val, by omega⟩ := by
  subst h
  rw [Fin.sum_univ_add]
  rfl

/-- The two-step accumulation from zero, with the addend h, clipped at zero. -/
theorem accumulate_two (S0 S1 h : EReal) : max (((0 + S0) + S1) + h) 0 = max (h + (S0 + S1)) 0 := by
  rw [zero_add, add_comm (S0 + S1) h]

end Cert.SplitAccumulate

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.SplitLaw.lean ====
/-
  The algebra that joins the two ways of accumulating the feed-forward head.

  * A hidden unit built term after term onto 0, with the rotation cosine folded into the weight, is the rectified
    affine form over the eight products (cos x · cos ry) · w1: only 0 + x = x and the commutativity and
    associativity of · on the extended reals are used, so no entry has to be finite.
  * Where the hidden units and the weights are real numbers, a real minus itself is 0, and 0 · x = x · 0 = 0 for
    every extended real x; so the contraction against the weight's remainder and the contraction of the hidden
    units' remainders both vanish, and the three contractions collapse to the contraction against the weight.
  * A hidden unit of a token with real entries, real rotation angles, real weights and real bias is real: the
    cosine of a real is real, and reals are closed under ·, +, finite sums and max.
  * Together: the split accumulation of the folded hidden units is the token's output.
-/
import Mathlib.Algebra.BigOperators.Fin
import proofs.«116817_j65481071395761_2_alg».proof.Proof.FeedForward
import proofs.«116817_j65481071395761_2_alg».proof.Proof.LibSplitAccumulate
import proofs.«116817_j65481071395761_2_alg».proof.Proof.LibRealValued

noncomputable section

open scoped BigOperators

namespace Cert.FeedForward

open Idealize.ShloMosaic Idealize.ShloMosaic.ValueIdx
open Cert.Lib.RealValued

/-- The term-after-term accumulation with the cosine folded into the weight is the rectified affine form. -/
theorem foldedHidden_eq (z c w : Fin 8 → EReal) (b : EReal) :
    foldedHidden z (fun q => w q * c q) b = max ((∑ q : Fin 8, (z q * c q) * w q) + b) 0 := by
  have h : ∀ q, z q * (w q * c q) = (z q * c q) * w q := fun q => by
    rw [mul_comm (w q) (c q), mul_assoc]
  simp only [foldedHidden, Fin.sum_univ_eight, zero_add, h]

/-- With real hidden units and real weights both remainders are 0 and the three contractions are one. -/
theorem splitOut_eq (r w : Fin 2048 → EReal) (b : EReal) (hr : ∀ f, IsReal (r f)) (hw : ∀ f, IsReal (w f)) :
    splitOut r w (fun f => w f - w f) b = (∑ f : Fin 2048, r f * w f) + b := by
  have h2 : (∑ f : Fin 2048, r f * (w f - w f)) = 0 :=
    Cert.SplitAccumulate.sum_mul_remainder r w hw
  have h3 : (∑ f : Fin 2048, (r f - r f) * w f) = 0 :=
    Finset.sum_eq_zero fun f _ => by
      rw [Cert.SplitAccumulate.sub_self_of_isReal (hr f), zero_mul]
  show (((∑ f : Fin 2048, r f * w f) + (∑ f : Fin 2048, r f * (w f - w f)))
      + (∑ f : Fin 2048, (r f - r f) * w f)) + b = _
  rw [h2, h3, add_zero, add_zero]

/-- The cosine of a real is real. -/
private theorem isReal_cos {x : EReal} (hx : IsReal x) : IsReal (Ideal.cos x) := by
  obtain ⟨r, rfl⟩ := hx
  exact ⟨Real.cos r, rfl⟩

/-- A hidden unit of real data is real. -/
theorem isReal_hiddenRow (xr : Fin 8 → EReal) (ry : (⟨1, ![8]⟩ : Shape).Idx → EReal)
    (w1 : (⟨2, ![2048, 8]⟩ : Shape).Idx → EReal) (b1 : (⟨1, ![2048]⟩ : Shape).Idx → EReal) (f : Fin 2048)
    (hx : ∀ q, IsReal (xr q)) (hry : AllReal ry) (hw1 : AllReal w1) (hb1 : AllReal b1) :
    IsReal (hiddenRow xr ry w1 b1 f) := by
  unfold hiddenRow
  exact IsReal.max
    (IsReal.add
      (IsReal.sum _ _ fun q _ => ((isReal_cos (hx q)).mul (isReal_cos (hry _))).mul (hw1 _))
      (hb1 _))
    IsReal.zero

/-- The split accumulation of the folded hidden units is the token's output. -/
theorem kernelRow_eq (xr : Fin 8 → EReal) (ry : (⟨1, ![8]⟩ : Shape).Idx → EReal)
    (w1 : (⟨2, ![2048, 8]⟩ : Shape).Idx → EReal) (b1 : (⟨1, ![2048]⟩ : Shape).Idx → EReal)
    (w2 : (⟨2, ![512, 2048]⟩ : Shape).Idx → EReal) (b2 : (⟨1, ![512]⟩ : Shape).Idx → EReal) (e : Fin 512)
    (hx : ∀ q, IsReal (xr q)) (hry : AllReal ry) (hw1 : AllReal w1) (hb1 : AllReal b1) (hw2 : AllReal w2) :
    splitOut (fun f => foldedHidden (fun q => Ideal.cos (xr q)) (fun q => w1 (ix2 f q) * Ideal.cos (ry (ix1 q))) (b1 (ix1 f)))
        (fun f => w2 (ix2 e f)) (fun f => w2 (ix2 e f) - w2 (ix2 e f)) (b2 (ix1 e))
      = outRow xr ry w1 b1 w2 b2 e := by
  have hfold : (fun f : Fin 2048 => foldedHidden (fun q => Ideal.cos (xr q))
        (fun q => w1 (ix2 f q) * Ideal.cos (ry (ix1 q))) (b1 (ix1 f)))
      = fun f => hiddenRow xr ry w1 b1 f :=
    funext fun f =>
      foldedHidden_eq (fun q => Ideal.cos (xr q)) (fun q => Ideal.cos (ry (ix1 q))) (fun q => w1 (ix2 f q))
        (b1 (ix1 f))
  rw [hfold]
  exact splitOut_eq (fun f => hiddenRow xr ry w1 b1 f) (fun f => w2 (ix2 e f)) (b2 (ix1 e))
    (fun f => isReal_hiddenRow xr ry w1 b1 f hx hry hw1 hb1) (fun f => hw2 _)

end Cert.FeedForward

end
-- ==== Proof.KernelResult.lean ====
/-
  The program's result as the feed-forward head of its argument arrays.

  Row r = 2048 b + s of the region's output array is accumulated from row r of the token array — which is token
  (b, s) of the input, the reshape being row-major —, the first-layer weight times the rotation cosine (read
  transposed), the hidden bias, the second-layer weight read transposed, that weight minus itself, and the output
  bias. Where every input is a real number the folded products re-associate to the head's, every hidden unit is
  real, and the two remainders vanish: the row is the head's output row of token (b, s). The result, the output
  array read as [8, 2048, 512], is therefore `headOut` of the argument arrays.
-/
import proofs.«116817_j65481071395761_2_alg».proof.Proof.RegionValue
import proofs.«116817_j65481071395761_2_alg».proof.Proof.HostPrefix
import proofs.«116817_j65481071395761_2_alg».proof.Proof.SplitLaw
import proofs.«116817_j65481071395761_2_alg».proof.Proof.LibRealValued

noncomputable section

namespace Cert.FeedForward

open Idealize.ShloMosaic Idealize.ShloMosaic.ValueIdx Idealize.ShloMosaic.TcCoe Idealize.SL.Sem Cert.KernelIdeal Cert.KernelIdeal.Gen
open Cert.Lib.RealValued

/-- The head on the whole input: output e of token (b, s) at index (b, s, e). -/
def headOut (x : (⟨3, ![8, 2048, 512]⟩ : Shape).Idx → EReal) (ry : (⟨1, ![8]⟩ : Shape).Idx → EReal)
    (w1 : (⟨2, ![2048, 8]⟩ : Shape).Idx → EReal) (b1 : (⟨1, ![2048]⟩ : Shape).Idx → EReal)
    (w2 : (⟨2, ![512, 2048]⟩ : Shape).Idx → EReal) (b2 : (⟨1, ![512]⟩ : Shape).Idx → EReal) :
    (⟨3, ![8, 2048, 512]⟩ : Shape).Idx → EReal :=
  fun i => outRow (fun q => x (ix3 (i 0) (i 1) (lane8 q))) ry w1 b1 w2 b2 (i 2)

theorem headOut_apply (x : (⟨3, ![8, 2048, 512]⟩ : Shape).Idx → EReal) (ry : (⟨1, ![8]⟩ : Shape).Idx → EReal)
    (w1 : (⟨2, ![2048, 8]⟩ : Shape).Idx → EReal) (b1 : (⟨1, ![2048]⟩ : Shape).Idx → EReal)
    (w2 : (⟨2, ![512, 2048]⟩ : Shape).Idx → EReal) (b2 : (⟨1, ![512]⟩ : Shape).Idx → EReal) (b : Fin 8) (s : Fin 2048) (e : Fin 512) :
    headOut x ry w1 b1 w2 b2 (ix3 b s e) = outRow (fun q => x (ix3 b s (lane8 q))) ry w1 b1 w2 b2 e := rfl

variable (m : (ℓ : Loc nD τ sig) → Buf (Elt Ideal) ℓ) (c : Dev nD)

/-- Row 2048 b + s of the output array is the head's output row of token (b, s), the inputs being real. -/
theorem regionAt_eq (x : (⟨3, ![8, 2048, 512]⟩ : Shape).Idx → EReal) (ry : (⟨1, ![8]⟩ : Shape).Idx → EReal)
    (w1 : (⟨2, ![2048, 8]⟩ : Shape).Idx → EReal) (b1 : (⟨1, ![2048]⟩ : Shape).Idx → EReal)
    (w2 : (⟨2, ![512, 2048]⟩ : Shape).Idx → EReal) (b2 : (⟨1, ![512]⟩ : Shape).Idx → EReal)
    (hx : (m ((c.tc : Thread nD τ).loc main_arg0) : S8x2048x512.Idx → EReal) = x)
    (hry : (m ((c.tc : Thread nD τ).loc main_arg1) : S8.Idx → EReal) = ry)
    (hw1 : (m ((c.tc : Thread nD τ).loc main_arg2) : S2048x8.Idx → EReal) = w1)
    (hb1 : (m ((c.tc : Thread nD τ).loc main_arg3) : S2048.Idx → EReal) = b1)
    (hw2 : (m ((c.tc : Thread nD τ).loc main_arg4) : S512x2048.Idx → EReal) = w2)
    (hb2 : (m ((c.tc : Thread nD τ).loc main_arg5) : S512.Idx → EReal) = b2)
    (rx : AllReal x) (rry : AllReal ry) (rw1 : AllReal w1) (rb1 : AllReal b1) (rw2 : AllReal w2)
    (b : Fin 8) (s : Fin 2048) (e : Fin 512) (r : Fin 16384) (hr : r.val = b.val * 2048 + s.val) :
    regionAt m c r e = outRow (fun q => x (ix3 b s (lane8 q))) ry w1 b1 w2 b2 e := by
  have hbq : (⟨r.val / 2048, by have := r.isLt; omega⟩ : Fin 8) = b := Fin.ext (by show r.val / 2048 = b.val; have := s.isLt; omega)
  have hsq : (⟨r.val % 2048, Nat.mod_lt _ (by decide)⟩ : Fin 2048) = s := Fin.ext (by show r.val % 2048 = s.val; have := s.isLt; omega)
  unfold regionAt
  simp only [tokens_apply m c, foldedWeights_apply m c, hiddenBias_apply m c, weightHi_apply m c, weightLo_apply m c, outBias_apply m c,
    hx, hry, hw1, hb1, hw2, hb2, hbq, hsq]
  exact kernelRow_eq (fun q => x (ix3 b s (lane8 q))) ry w1 b1 w2 b2 e (fun q => rx _) rry rw1 rb1 rw2

/-- The program's result is the head of its argument arrays, the inputs being real. -/
theorem kernel_result (x : (⟨3, ![8, 2048, 512]⟩ : Shape).Idx → EReal) (ry : (⟨1, ![8]⟩ : Shape).Idx → EReal)
    (w1 : (⟨2, ![2048, 8]⟩ : Shape).Idx → EReal) (b1 : (⟨1, ![2048]⟩ : Shape).Idx → EReal)
    (w2 : (⟨2, ![512, 2048]⟩ : Shape).Idx → EReal) (b2 : (⟨1, ![512]⟩ : Shape).Idx → EReal)
    (hx : (m ((c.tc : Thread nD τ).loc main_arg0) : S8x2048x512.Idx → EReal) = x)
    (hry : (m ((c.tc : Thread nD τ).loc main_arg1) : S8.Idx → EReal) = ry)
    (hw1 : (m ((c.tc : Thread nD τ).loc main_arg2) : S2048x8.Idx → EReal) = w1)
    (hb1 : (m ((c.tc : Thread nD τ).loc main_arg3) : S2048.Idx → EReal) = b1)
    (hw2 : (m ((c.tc : Thread nD τ).loc main_arg4) : S512x2048.Idx → EReal) = w2)
    (hb2 : (m ((c.tc : Thread nD τ).loc main_arg5) : S512.Idx → EReal) = b2)
    (rx : AllReal x) (rry : AllReal ry) (rw1 : AllReal w1) (rb1 : AllReal b1) (rw2 : AllReal w2) :
    (Pipeline.afterTail₀ cfgs (dats (F := Ideal) m) 0 (V0 m) [hostOps1] c main_v14 : S8x2048x512.Idx → EReal)
      = headOut x ry w1 b1 w2 b2 := by
  funext i
  obtain ⟨b, s, e, rfl⟩ : ∃ (b : Fin 8) (s : Fin 2048) (e : Fin 512), i = ix3 b s e := ⟨i 0, i 1, i 2, eq_ix3 i⟩
  rw [result_apply m c b s e, headOut_apply]
  exact regionAt_eq m c x ry w1 b1 w2 b2 hx hry hw1 hb1 hw2 hb2 rx rry rw1 rb1 rw2 b s e _ rfl

end Cert.FeedForward

end
-- ==== Proof.ReferenceRow.lean ====
/-
  The reference program read one entry at a time.

  The reference takes the first eight entries of each token, multiplies their cosines by the cosines of the rotation
  vector, contracts the eight products against the first weight, adds the first bias, rectifies against 0, contracts
  the 2048 hidden units against the second weight and adds the second bias. Every operation of it writes an entry
  that depends on one entry of each operand (or, for the two contractions, on one row of each), so its result at
  batch b, token s, output e can be followed back to the inputs: it is the specification's `outRow` of the eight
  leading entries of token (b, s).  The hidden stage is identified first (`reference_hidden_apply`), then the output.
-/
import proofs.«116817_j65481071395761_2_alg».proof.Proof.Gen.ReferenceIdeal.Read
import proofs.«116817_j65481071395761_2_alg».proof.Proof.FeedForward
import Idealize.ShloMosaic.Lib.ValueIdx
import Idealize.ShloMosaic.PureOps.Ideal.Laws

noncomputable section

open scoped BigOperators

namespace Cert.FeedForward

open Idealize.ShloMosaic Idealize.ShloMosaic.ValueIdx Cert.ReferenceIdeal Cert.ReferenceIdeal.Read

/-! ## Where each operation reads -/

/-- The slice of the leading eight entries reads the token's row at the same lane. -/
theorem idx_slice_ix3 (b : Fin 8) (s : Fin 2048) (q : Fin 8) :
    idx_main_v0 (ix3 b s q) = ix3 b s (lane8 q) :=
  funext fun a => Fin.ext (by match a with | ⟨0, _⟩ => rfl | ⟨1, _⟩ => rfl | ⟨2, _⟩ => rfl)

/-- The rotation vector, broadcast over batch and token, is read at the lane. -/
theorem idx_rot_ix3 (b : Fin 8) (s : Fin 2048) (q : Fin 8) :
    idx_main_v3 (idx_main_v4 (ix3 b s q)) = ix1 q :=
  funext fun a => Fin.ext (by match a with | ⟨0, _⟩ => rfl)

/-- The first contraction's left operand: the token's feature k. -/
theorem lidx_hidden_ix3 (b : Fin 8) (s : Fin 2048) (f : Fin 2048) (k : Fin 8) :
    lidx_main_v6 (ix3 b s f) k = ix3 b s k :=
  funext fun a => Fin.ext (by match a with | ⟨0, _⟩ => rfl | ⟨1, _⟩ => rfl | ⟨2, _⟩ => rfl)

/-- The first contraction's right operand: the weight of hidden unit f at feature k. -/
theorem ridx_hidden_ix3 (b : Fin 8) (s : Fin 2048) (f : Fin 2048) (k : Fin 8) :
    ridx_main_v6 (ix3 b s f) k = ix2 f k :=
  funext fun a => Fin.ext (by match a with | ⟨0, _⟩ => rfl | ⟨1, _⟩ => rfl)

/-- The first bias, broadcast over batch and token, is read at the hidden unit. -/
theorem idx_bias1_ix3 (b : Fin 8) (s : Fin 2048) (f : Fin 2048) :
    idx_main_v7 (idx_main_v8 (ix3 b s f)) = ix1 f :=
  funext fun a => Fin.ext (by match a with | ⟨0, _⟩ => rfl)

/-- The second contraction's left operand: the token's hidden unit k. -/
theorem lidx_out_ix3 (b : Fin 8) (s : Fin 2048) (e : Fin 512) (k : Fin 2048) :
    lidx_main_v11 (ix3 b s e) k = ix3 b s k :=
  funext fun a => Fin.ext (by match a with | ⟨0, _⟩ => rfl | ⟨1, _⟩ => rfl | ⟨2, _⟩ => rfl)

/-- The second contraction's right operand: the weight of output e at hidden unit k. -/
theorem ridx_out_ix3 (b : Fin 8) (s : Fin 2048) (e : Fin 512) (k : Fin 2048) :
    ridx_main_v11 (ix3 b s e) k = ix2 e k :=
  funext fun a => Fin.ext (by match a with | ⟨0, _⟩ => rfl | ⟨1, _⟩ => rfl)

/-- The second bias, broadcast over batch and token, is read at the output. -/
theorem idx_bias2_ix3 (b : Fin 8) (s : Fin 2048) (e : Fin 512) :
    idx_main_v12 (idx_main_v13 (ix3 b s e)) = ix1 e :=
  funext fun a => Fin.ext (by match a with | ⟨0, _⟩ => rfl)

/-! ## The stages -/

/-- Feature q of token (b, s): the cosine of the token's entry q times the cosine of the rotation entry q. -/
theorem reference_feature_apply (x0 : (⟨S8x2048x512, .f32⟩ : BufTy).Contents (Elt Ideal))
    (x1 : (⟨S8, .f32⟩ : BufTy).Contents (Elt Ideal)) (b : Fin 8) (s : Fin 2048) (q : Fin 8) :
    val_main_v5 (F := Ideal) x0 x1 (ix3 b s q) = Ideal.cos (x0 (ix3 b s (lane8 q))) * Ideal.cos (x1 (ix1 q)) := by
  rw [val_main_v5_apply, val_main_v1_apply, val_main_v0_apply, val_main_v4_apply, val_main_v3_apply,
    val_main_v2_apply, idx_slice_ix3, idx_rot_ix3]
  rfl

/-- The rectified hidden unit f of token (b, s) is the specification's `hiddenRow`. -/
theorem reference_hidden_apply (x0 : (⟨S8x2048x512, .f32⟩ : BufTy).Contents (Elt Ideal))
    (x1 : (⟨S8, .f32⟩ : BufTy).Contents (Elt Ideal)) (x2 : (⟨S2048x8, .f32⟩ : BufTy).Contents (Elt Ideal))
    (x3 : (⟨S2048, .f32⟩ : BufTy).Contents (Elt Ideal)) (b : Fin 8) (s : Fin 2048) (f : Fin 2048) :
    val_main_v10 (F := Ideal) x0 x1 x2 x3 (ix3 b s f)
      = hiddenRow (fun q => x0 (ix3 b s (lane8 q))) x1 x2 x3 f := by
  rw [val_main_v10_apply, val_main_v9_apply, val_main_v6_apply, val_main_v8_apply, val_main_v7_apply,
    val_main_call0_v0_apply, val_main_call0_cst_apply, idx_bias1_ix3]
  simp only [lidx_hidden_ix3, ridx_hidden_ix3, reference_feature_apply, Ideal.ofBits_def, Ideal.ofBits_zero_f32,
    Ideal.addf_def, Ideal.maximumf_def]
  rfl

/-- The reference's result at batch b, token s, output e is the specification's `outRow` of that token. -/
theorem reference_apply (x0 : (⟨S8x2048x512, .f32⟩ : BufTy).Contents (Elt Ideal)) (x1 : (⟨S8, .f32⟩ : BufTy).Contents (Elt Ideal)) (x2 : (⟨S2048x8, .f32⟩ : BufTy).Contents (Elt Ideal)) (x3 : (⟨S2048, .f32⟩ : BufTy).Contents (Elt Ideal)) (x4 : (⟨S512x2048, .f32⟩ : BufTy).Contents (Elt Ideal)) (x5 : (⟨S512, .f32⟩ : BufTy).Contents (Elt Ideal)) (b : Fin 8) (s : Fin 2048) (e : Fin 512) :
    val_main_v14 (F := Ideal) x0 x1 x2 x3 x4 x5 (ix3 b s e) = outRow (fun q => x0 (ix3 b s (lane8 q))) x1 x2 x3 x4 x5 e := by
  rw [val_main_v14_apply, val_main_v11_apply, val_main_v13_apply, val_main_v12_apply, idx_bias2_ix3]
  simp only [lidx_out_ix3, ridx_out_ix3, reference_hidden_apply, Ideal.addf_def]
  rfl

end Cert.FeedForward

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«116817_j65481071395761_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.FiniteInputs.lean ====
/-
  Every input is real-valued.

  The precondition is the conjunction of six tests, one per input array: the absolute value of the array is
  compared entry by entry with +∞, and the answers are combined by `and` over every axis; the six results
  are combined by `and` once more. If the whole conjunction is 1 then each of the six tests is 1, and a test
  that is 1 says that every entry of its array has absolute value below +∞, that is, is a real number.
-/
import proofs.«116817_j65481071395761_2_alg».proof.Pre_finite_inputs
import proofs.«116817_j65481071395761_2_alg».proof.Proof.Gen.Pre_finite_inputs
import proofs.«116817_j65481071395761_2_alg».proof.Proof.LibFiniteTest
import Idealize.ShloMosaic.Lib.ReduceAll
import Idealize.ShloMosaic.Lib.ValueIdx

noncomputable section

namespace Cert.FeedForward

open Idealize.ShloMosaic Cert.Lib.RealValued Cert.Pre_finite_inputs

/-- If the precondition holds, all six argument arrays are real-valued. -/
theorem allReal_of_pre (x0 : FVec Ideal S8x2048x512 .f32) (x1 : FVec Ideal S8 .f32) (x2 : FVec Ideal S2048x8 .f32) (x3 : FVec Ideal S2048 .f32) (x4 : FVec Ideal S512x2048 .f32) (x5 : FVec Ideal S512 .f32)
    (h : Cert.Pre_finite_inputs.fn (F := Ideal) x0 x1 x2 x3 x4 x5 = fun _ => 1#1) :
    AllReal x0 ∧ AllReal x1 ∧ AllReal x2 ∧ AllReal x3 ∧ AllReal x4 ∧ AllReal x5 := by
  -- the shape with no axes has a single index
  haveI : Subsingleton S_.Idx := ⟨fun a b => funext fun d => d.elim0⟩
  have h0 := congrFun h ValueIdx.ix0
  dsimp only [fn, fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨Cert.Lib.FiniteTest.allReal_of_all x0 _ _ _ _ _ _ e0,
    Cert.Lib.FiniteTest.allReal_of_all x1 _ _ _ _ _ _ e1,
    Cert.Lib.FiniteTest.allReal_of_all x2 _ _ _ _ _ _ e2,
    Cert.Lib.FiniteTest.allReal_of_all x3 _ _ _ _ _ _ e3,
    Cert.Lib.FiniteTest.allReal_of_all x4 _ _ _ _ _ _ e4,
    Cert.Lib.FiniteTest.allReal_of_all x5 _ _ _ _ _ _ e5⟩

end Cert.FeedForward

end
-- ==== Proof.lean ====
/-
  The feed-forward kernel computes its reference on the extended reals.

  Both programs map x[8, 2048, 512], ry[8], w1[2048, 8], b1[2048], w2[512, 2048], b2[512] to [8, 2048, 512]. For
  token (b, s) and output e the reference computes

      Σ_f max (Σ_q (cos x(b,s,q) · cos ry(q)) · w1(f,q) + b1(f)) 0 · w2(e,f) + b2(e),      q < 8, f < 2048.

  The kernel folds cos ry into w1 on the host, accumulates the eight products of a hidden unit one after the other
  onto 0, and contracts over f three times: the hidden units against w2, against w2 minus its narrowed copy, and the
  hidden units minus their narrowed copies against w2. On the extended reals narrowing is the identity, so the two
  remainders are v - v, which is 0 exactly where v is a real number: this is where the precondition (every input
  finite) is used — it makes every hidden unit and every weight real. The products re-associate by commutativity
  and associativity of the extended reals' multiplication, which need no finiteness.

  Modules: FeedForward (the head, one token at a time, and the kernel's accumulation order), SplitLaw (the two
  orders agree on real inputs), ReferenceRow (the reference's result at an index is the head's), FiniteInputs (the
  precondition makes the inputs real), HostPrefix (the arrays the region is launched on, at an index), BodyRow (what
  the region's body stores at one position), RegionValue (the 16 blocks tile the output array; the reshape after the
  region), KernelResult (the kernel program's result is the head of its arguments). Here: the three frames, the
  one narrowing the idealization removed, and the two runs side by side.
-/
import proofs.«116817_j65481071395761_2_alg».proof.Defs
import proofs.«116817_j65481071395761_2_alg».proof.Proof.Gen.Kernel
import proofs.«116817_j65481071395761_2_alg».proof.Proof.Gen.Kernel.Skeleton
import proofs.«116817_j65481071395761_2_alg».proof.Proof.Gen.Kernel.Launch
import proofs.«116817_j65481071395761_2_alg».proof.Proof.Gen.Kernel.Points
import proofs.«116817_j65481071395761_2_alg».proof.Proof.Gen.Kernel.Frame
import proofs.«116817_j65481071395761_2_alg».proof.Proof.Gen.KernelIdeal
import proofs.«116817_j65481071395761_2_alg».proof.Proof.Gen.KernelIdeal.Skeleton
import proofs.«116817_j65481071395761_2_alg».proof.Proof.Gen.KernelIdeal.Launch
import proofs.«116817_j65481071395761_2_alg».proof.Proof.Gen.KernelIdeal.Points
import proofs.«116817_j65481071395761_2_alg».proof.Proof.Gen.KernelIdeal.Frame
import proofs.«116817_j65481071395761_2_alg».proof.Proof.Gen.ReferenceIdeal
import proofs.«116817_j65481071395761_2_alg».proof.Proof.Gen.Pre_finite_inputs
import proofs.«116817_j65481071395761_2_alg».proof.Proof.Gen.ReferenceIdeal.Run
import proofs.«116817_j65481071395761_2_alg».proof.Proof.Gen.ReferenceIdeal.Read
import proofs.«116817_j65481071395761_2_alg».proof.Proof.KernelResult
import proofs.«116817_j65481071395761_2_alg».proof.Proof.ReferenceRow
import proofs.«116817_j65481071395761_2_alg».proof.Proof.FiniteInputs
import Idealize.ShloMosaic.Adequacy
import Idealize.ShloMosaic.Init

noncomputable section

namespace Cert.Proof

open Idealize.ShloMosaic Idealize.ShloMosaic.ValueIdx Idealize.SL.Sem Cert.FeedForward Cert.Lib.RealValued

/-- The reference's result is the head of its argument arrays: index by index it is the head's output row. -/
theorem reference_result (x0 : (⟨3, ![8, 2048, 512]⟩ : Shape).Idx → EReal) (x1 : (⟨1, ![8]⟩ : Shape).Idx → EReal)
    (x2 : (⟨2, ![2048, 8]⟩ : Shape).Idx → EReal) (x3 : (⟨1, ![2048]⟩ : Shape).Idx → EReal)
    (x4 : (⟨2, ![512, 2048]⟩ : Shape).Idx → EReal) (x5 : (⟨1, ![512]⟩ : Shape).Idx → EReal) :
    Cert.ReferenceIdeal.Read.val_main_v14 (F := Ideal) x0 x1 x2 x3 x4 x5 = headOut x0 x1 x2 x3 x4 x5 := by
  funext i
  obtain ⟨b, s, e, rfl⟩ : ∃ (b : Fin 8) (s : Fin 2048) (e : Fin 512), i = ix3 b s e := ⟨i 0, i 1, i 2, eq_ix3 i⟩
  exact reference_apply x0 x1 x2 x3 x4 x5 b s e

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: widening the narrowed hidden units back is, on the extended reals, the
    hidden units themselves. -/
theorem preserves : Cert.preserves_Kernel_KernelIdeal := IdealRules.truncf_extf.statement _ .f32 .bf16

/-- From memories agreeing on the arguments, the arguments finite, both programs end with the head of the
    arguments as their result. -/
theorem algebraic : Cert.algebraic_KernelIdeal_ReferenceIdeal := by
  intro m ρ m' ρ' hpre hagree
  refine ⟨fun c => headOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Gen.run_main (F := Ideal) m ρ)
    obtain ⟨r0, r1, r2, r3, r4, -⟩ := allReal_of_pre _ _ _ _ _ _ (hpre c)
    exact ⟨((h c).2 Cert.KernelIdeal.main_v14 (Pipeline.mem_restRefs_of Cert.KernelIdeal.main_v14 (by decide) (by decide))).trans
        (kernel_result m c _ _ _ _ _ _ rfl rfl rfl rfl rfl rfl r0 r1 r2 r3 r4),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c)⟩
  · refine (θ_run Cert.ReferenceIdeal.defs _ _).mono (fun r h c => ⟨?_, (h c).2⟩) (Cert.ReferenceIdeal.Value.run (F := Ideal) m' ρ')
    refine (h c).1.trans ((Cert.ReferenceIdeal.Read.val_main_v14_eq (F := Ideal) _ _ _ _ _ _).trans ((reference_result _ _ _ _ _ _).trans ?_))
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
